-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_c_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_c_7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_c_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg7 : FVec F S256 .f32) (main_arg8 : FVec F S256x40 .f32) (main_arg9 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40 .f32 := Host.absf main_arg8
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg9
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : IVec S50000 1) (main_arg4 : FVec F S256x256 .f32) (main_arg5 : FVec F S256 .f32) (main_arg6 : FVec F S256x256 .f32) (main_arg7 : FVec F S256 .f32) (main_arg8 : FVec F S256x40 .f32) (main_arg9 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S5000x256 : Shape := ⟨2, ![5000, 256]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 60
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S50000, .i1⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x256, .f32⟩
  | .hbm, ⟨38, _⟩ => ⟨S_, .f32⟩
  | .hbm, ⟨39, _⟩ => ⟨S50000x256, .f32⟩
  | .hbm, ⟨40, _⟩ => ⟨S800000x1, .i32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S1x40, .f32⟩
  | .hbm, ⟨58, _⟩ => ⟨S50000x40, .f32⟩
  | .hbm, ⟨59, _⟩ => ⟨S_, .i32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S40_S1x40 : S40.ShapeCasts S1x40
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .f32 = 32 ∨ (Rect.block (s := S256x40) S256x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v13) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S50000, .i1⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S50000x40, .f32⟩
  | .hbm, ⟨68, _⟩ => ⟨S1x40, .f32⟩
  | .hbm, ⟨69, _⟩ => ⟨S50000x40, .f32⟩
  | .hbm, ⟨70, _⟩ => ⟨S50000x40, .f32⟩
  | .hbm, ⟨71, _⟩ => ⟨S_, .f32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x40, .f32⟩
  | .hbm, ⟨78, _⟩ => ⟨S50000x40, .f32⟩
  | .hbm, ⟨79, _⟩ => ⟨S50000x40, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S50000x1, .f32⟩
  | .hbm, ⟨84, _⟩ => ⟨S50000x40, .f32⟩
  | .hbm, ⟨85, _⟩ => ⟨S50000x40, .f32⟩
  | .hbm, ⟨86, _⟩ => ⟨S_, .i32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call2_cst : Ref sig .tc := ⟨.hbm, 71, rfl⟩
abbrev main_call2_v0 : Ref sig .tc := ⟨.hbm, 72, rfl⟩
abbrev main_call2_cst_0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_cst_1 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_v48 : Ref sig .tc := ⟨.hbm, 85, rfl⟩
abbrev main_c_7 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KRun.lean ====
/-
  The kernel program's run with the contents of every buffer at its end named.

  @main is four stretches of host operations around three pipelines. The thread state at each boundary is "every unscoped
  buffer at the boundary's contents": a stretch folds its operations over the contents, a pipeline replaces each of its
  arrays by what its write-backs leave. Launched from any memory with zero counters, every weakly fair execution
  terminates, nothing faulting, and in the final state every unscoped buffer holds the last boundary's contents.
  This is the statement the program's frame is read off; here it is kept whole, so that the result buffers can be read too.
-/
import proofs.«159212_j257698038541_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with every unscoped buffer of every core at the
    contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Net

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibGcnSteps.lean ====
/-
  The four kinds of step of a two-layer graph convolution with a link decoder, each written entry by entry, and
  each shown equal to the same step spelt with whole-array host operations.

  * a matrix product: entry (p, q) is the sum over k of x(p, k) · w(k, q);
  * scaling every row p of a message matrix by one number n(p, 0) of a column;
  * adding a bias row to every row and clamping below at zero;
  * the link score of row p: the sum over h of zs(p, h) · zd(p, h) · w(0, h), plus one bias number.

  Nothing here needs a finite operand: the only laws used are that both spellings name the same entries.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«159212_j257698038541_1_alg».proof.Proof.LibLayout
import proofs.«159212_j257698038541_1_alg».proof.Proof.LibMatmulIx

noncomputable section

namespace Gcn

open Idealize.ShloMosaic Idealize.ShloMosaic.ValueIdx

variable {a b K : ℕ}

/-! ## The steps, entry by entry -/

/-- The matrix product: entry (p, q) is the sum over k of x(p, k) · w(k, q). -/
def mm (x : FVec Ideal ⟨2, ![a, K]⟩ .f32) (w : FVec Ideal ⟨2, ![K, b]⟩ .f32) : FVec Ideal ⟨2, ![a, b]⟩ .f32 :=
  fun i => ∑ k : Fin K, x (ix2 (i 0) k) * w (ix2 k (i 1))

/-- Row p of g multiplied by the number n(p, 0). -/
def scale (g : FVec Ideal ⟨2, ![a, b]⟩ .f32) (n : FVec Ideal ⟨2, ![a, 1]⟩ .f32) : FVec Ideal ⟨2, ![a, b]⟩ .f32 :=
  fun i => g i * n (ix2 (i 0) (0 : Fin 1))

/-- The bias row added to every row, then the maximum with zero. -/
def biasRelu (z : FVec Ideal ⟨2, ![a, b]⟩ .f32) (bias : FVec Ideal ⟨2, ![1, b]⟩ .f32) : FVec Ideal ⟨2, ![a, b]⟩ .f32 :=
  fun i => max (z i + bias (ix2 (0 : Fin 1) (i 1))) (Ideal.ofBits .f32 0x00000000#32)

/-- The link score of row p: the sum over h of zs(p, h) · zd(p, h) · w(0, h), plus the bias number. -/
def decode (zs zd : FVec Ideal ⟨2, ![a, b]⟩ .f32) (w : FVec Ideal ⟨2, ![1, b]⟩ .f32) (bias : FVec Ideal ⟨2, ![1, 1]⟩ .f32) :
    FVec Ideal ⟨2, ![a, 1]⟩ .f32 :=
  fun i => (∑ h : Fin b, zs (ix2 (i 0) h) * zd (ix2 (i 0) h) * w (ix2 (0 : Fin 1) h)) + bias (ix2 (0 : Fin 1) (0 : Fin 1))

theorem mm_apply (x : FVec Ideal ⟨2, ![a, K]⟩ .f32) (w : FVec Ideal ⟨2, ![K, b]⟩ .f32) (p : Fin a) (q : Fin b) :
    mm x w (ix2 p q) = ∑ k : Fin K, x (ix2 p k) * w (ix2 k q) := rfl

theorem scale_apply (g : FVec Ideal ⟨2, ![a, b]⟩ .f32) (n : FVec Ideal ⟨2, ![a, 1]⟩ .f32) (p : Fin a) (q : Fin b) :
    scale g n (ix2 p q) = g (ix2 p q) * n (ix2 p (0 : Fin 1)) := rfl

theorem biasRelu_apply (z : FVec Ideal ⟨2, ![a, b]⟩ .f32) (bias : FVec Ideal ⟨2, ![1, b]⟩ .f32) (p : Fin a) (q : Fin b) :
    biasRelu z bias (ix2 p q) = max (z (ix2 p q) + bias (ix2 (0 : Fin 1) q)) (Ideal.ofBits .f32 0x00000000#32) := rfl

theorem decode_apply (zs zd : FVec Ideal ⟨2, ![a, b]⟩ .f32) (w : FVec Ideal ⟨2, ![1, b]⟩ .f32) (bias : FVec Ideal ⟨2, ![1, 1]⟩ .f32)
    (p : Fin a) (u : Fin 1) :
    decode zs zd w bias (ix2 p u)
      = (∑ h : Fin b, zs (ix2 p h) * zd (ix2 p h) * w (ix2 (0 : Fin 1) h)) + bias (ix2 (0 : Fin 1) (0 : Fin 1)) := rfl

/-! ## The same steps spelt with host operations -/

/-- The product is the host's `dot_general` contracting the left operand's columns with the right operand's rows. -/
theorem mm_eq_dotGeneral (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (x : FVec Ideal ⟨2, ![a, K]⟩ .f32) (w : FVec Ideal ⟨2, ![K, b]⟩ .f32) :
    mm x w = Host.dotGeneral D prec x w := by
  funext i
  obtain ⟨p, q, rfl⟩ : ∃ (p : Fin a) (q : Fin b), i = ix2 p q := ⟨i 0, i 1, eq_ix2 i⟩
  exact (mm_apply x w p q).trans (MatmulIx.dotGeneral_ix2 D hr hs hl0 hl1 hr0 hr1 prec x w p q).symm

/-- A vector of a entries cast to a column and used to scale the rows is the host's product with the vector broadcast
    to a column and then along the rows. -/
theorem scale_eq_host (g : FVec Ideal ⟨2, ![a, b]⟩ .f32) (n : FVec Ideal ⟨1, ![a]⟩ .f32)
    (hc : (⟨1, ![a]⟩ : Shape).ShapeCasts ⟨2, ![a, 1]⟩)
    (h1 : (⟨1, ![a]⟩ : Shape).BroadcastsInDim ⟨2, ![a, 1]⟩ ![0])
    (h2 : (⟨2, ![a, 1]⟩ : Shape).BroadcastsInDim ⟨2, ![a, b]⟩ ![0, 1]) :
    scale g (shapeCast ⟨2, ![a, 1]⟩ n hc)
      = mulf g (broadcastInDim ⟨2, ![a, b]⟩ ![0, 1] h2 (broadcastInDim ⟨2, ![a, 1]⟩ ![0] h1 n)) := by
  funext i
  obtain ⟨p, q, rfl⟩ : ∃ (p : Fin a) (q : Fin b), i = ix2 p q := ⟨i 0, i 1, eq_ix2 i⟩
  have e1 : shapeCast ⟨2, ![a, 1]⟩ n hc (ix2 p (0 : Fin 1)) = n (ix1 p) := Cert.Attn.Layout.shapeCast_a_a1_apply n hc p 0
  have e2 : broadcastInDim ⟨2, ![a, b]⟩ ![0, 1] h2 (broadcastInDim ⟨2, ![a, 1]⟩ ![0] h1 n) (ix2 p q)
      = broadcastInDim ⟨2, ![a, 1]⟩ ![0] h1 n (ix2 p (0 : Fin 1)) :=
    broadcastInDim_apply ![0, 1] h2 _ (ix2 p q) (ix2 p (0 : Fin 1)) (fun c => by
      match c with
      | ⟨0, _⟩ =>
        show p.val = if a = 1 then 0 else p.val
        split
        · have := p.isLt; omega
        · rfl
      | ⟨1, _⟩ => show (0 : ℕ) = if (1 : ℕ) = 1 then 0 else _; rw [if_pos rfl])
  have e3 : broadcastInDim ⟨2, ![a, 1]⟩ ![0] h1 n (ix2 p (0 : Fin 1)) = n (ix1 p) :=
    broadcastInDim_apply ![0] h1 n (ix2 p (0 : Fin 1)) (ix1 p) (fun c => by
      match c with
      | ⟨0, _⟩ =>
        show p.val = if a = 1 then 0 else p.val
        split
        · have := p.isLt; omega
        · rfl)
  show g (ix2 p q) * shapeCast ⟨2, ![a, 1]⟩ n hc (ix2 p (0 : Fin 1)) = g (ix2 p q) * _
  rw [e1, e2, e3]

/-- A bias vector cast to one row, added to every row and clamped at zero, is the host's sum with the vector broadcast to
    a row and then to the matrix, and its maximum with the zero constant broadcast to the matrix. -/
theorem biasRelu_eq_host (z : FVec Ideal ⟨2, ![a, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    biasRelu z (shapeCast ⟨2, ![1, b]⟩ bias hc)
      = maximumf (addf z (broadcastInDim ⟨2, ![a, b]⟩ ![0, 1] h2 (broadcastInDim ⟨2, ![1, b]⟩ ![1] h1 bias)))
          (broadcastInDim ⟨2, ![a, b]⟩ ![] h0 (constant (F := Ideal) ⟨0, ![]⟩ .f32 0x00000000#32)) := by
  funext i
  obtain ⟨p, q, rfl⟩ : ∃ (p : Fin a) (q : Fin b), i = ix2 p q := ⟨i 0, i 1, eq_ix2 i⟩
  have e1 : shapeCast ⟨2, ![1, b]⟩ bias hc (ix2 (0 : Fin 1) q) = bias (ix1 q) := shapeCast_a_1a_apply bias hc 0 q
  have e2 : broadcastInDim ⟨2, ![a, b]⟩ ![0, 1] h2 (broadcastInDim ⟨2, ![1, b]⟩ ![1] h1 bias) (ix2 p q)
      = broadcastInDim ⟨2, ![1, b]⟩ ![1] h1 bias (ix2 (0 : Fin 1) q) := broadcastInDim_oneRow_apply h2 _ p q
  have e3 : broadcastInDim ⟨2, ![1, b]⟩ ![1] h1 bias (ix2 (0 : Fin 1) q) = bias (ix1 q) :=
    broadcastInDim_apply ![1] h1 bias (ix2 (0 : Fin 1) q) (ix1 q) (fun c => by
      match c with
      | ⟨0, _⟩ =>
        show q.val = if b = 1 then 0 else q.val
        split
        · have := q.isLt; omega
        · rfl)
  have e4 : broadcastInDim ⟨2, ![a, b]⟩ ![] h0 (constant (F := Ideal) ⟨0, ![]⟩ .f32 0x00000000#32) (ix2 p q)
      = Ideal.ofBits .f32 0x00000000#32 :=
    broadcastInDim_apply ![] h0 (constant (F := Ideal) ⟨0, ![]⟩ .f32 0x00000000#32) (ix2 p q) ix0 (fun c => c.elim0)
  show max (z (ix2 p q) + shapeCast ⟨2, ![1, b]⟩ bias hc (ix2 (0 : Fin 1) q)) (Ideal.ofBits .f32 0x00000000#32)
    = max (z (ix2 p q) + _) _
  rw [e1, e2, e3, e4]

/-- The link score with the weight column cast to a row and the bias number cast to a one-by-one matrix is the host's
    product of the entrywise product zs · zd with the weight column, plus the bias broadcast to a column. -/
theorem decode_eq_host (D : DotDims ⟨2, ![a, b]⟩ ⟨2, ![b, 1]⟩ ⟨2, ![a, 1]⟩) (hr : D.contr.rank = 1)
    (hs : D.contr.size ⟨0, by omega⟩ = b)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (zs zd : FVec Ideal ⟨2, ![a, b]⟩ .f32) (w : FVec Ideal ⟨2, ![b, 1]⟩ .f32) (bias : FVec Ideal ⟨1, ![1]⟩ .f32)
    (hcw : (⟨2, ![b, 1]⟩ : Shape).ShapeCasts ⟨2, ![1, b]⟩) (hcb : (⟨1, ![1]⟩ : Shape).ShapeCasts ⟨2, ![1, 1]⟩)
    (h1 : (⟨1, ![1]⟩ : Shape).BroadcastsInDim ⟨2, ![1, 1]⟩ ![1])
    (h2 : (⟨2, ![1, 1]⟩ : Shape).BroadcastsInDim ⟨2, ![a, 1]⟩ ![0, 1]) :
    decode zs zd (shapeCast ⟨2, ![1, b]⟩ w hcw) (shapeCast ⟨2, ![1, 1]⟩ bias hcb)
      = addf (Host.dotGeneral D prec (mulf zs zd) w)
          (broadcastInDim ⟨2, ![a, 1]⟩ ![0, 1] h2 (broadcastInDim ⟨2, ![1, 1]⟩ ![1] h1 bias)) := by
  funext i
  obtain ⟨p, u, rfl⟩ : ∃ (p : Fin a) (u : Fin 1), i = ix2 p u := ⟨i 0, i 1, eq_ix2 i⟩
  obtain rfl : u = 0 := Subsingleton.elim _ _
  have ew : ∀ h : Fin b, shapeCast ⟨2, ![1, b]⟩ w hcw (ix2 (0 : Fin 1) h) = w (ix2 h (0 : Fin 1)) := fun h =>
    shapeCast_apply w hcw (ix2 (0 : Fin 1) h) (ix2 h (0 : Fin 1)) (by
      rw [Shape.rowMajor_val_two, Shape.rowMajor_val_two]
      show h.val * 1 + 0 = 0 * b + h.val
      omega)
  have eb : shapeCast ⟨2, ![1, 1]⟩ bias hcb (ix2 (0 : Fin 1) (0 : Fin 1)) = bias (ix1 (0 : Fin 1)) :=
    shapeCast_a_1a_apply bias hcb 0 0
  have e2 : broadcastInDim ⟨2, ![a, 1]⟩ ![0, 1] h2 (broadcastInDim ⟨2, ![1, 1]⟩ ![1] h1 bias) (ix2 p (0 : Fin 1))
      = broadcastInDim ⟨2, ![1, 1]⟩ ![1] h1 bias (ix2 (0 : Fin 1) (0 : Fin 1)) := broadcastInDim_oneRow_apply h2 _ p 0
  have e3 : broadcastInDim ⟨2, ![1, 1]⟩ ![1] h1 bias (ix2 (0 : Fin 1) (0 : Fin 1)) = bias (ix1 (0 : Fin 1)) :=
    broadcastInDim_apply ![1] h1 bias (ix2 (0 : Fin 1) (0 : Fin 1)) (ix1 (0 : Fin 1)) (fun c => by
      match c with
      | ⟨0, _⟩ => show (0 : ℕ) = if (1 : ℕ) = 1 then 0 else _; rw [if_pos rfl])
  have ed : Host.dotGeneral D prec (mulf zs zd) w (ix2 p (0 : Fin 1))
      = ∑ k : Fin b, (mulf zs zd) (ix2 p k) * w (ix2 k (0 : Fin 1)) :=
    MatmulIx.dotGeneral_ix2 D hr hs hl0 hl1 hr0 hr1 prec (mulf zs zd) w p 0
  show (∑ h : Fin b, zs (ix2 p h) * zd (ix2 p h) * shapeCast ⟨2, ![1, b]⟩ w hcw (ix2 (0 : Fin 1) h))
      + shapeCast ⟨2, ![1, 1]⟩ bias hcb (ix2 (0 : Fin 1) (0 : Fin 1))
    = Host.dotGeneral D prec (mulf zs zd) w (ix2 p (0 : Fin 1)) + _
  rw [eb, e2, e3, ed]
  exact congrArg (· + bias (ix1 (0 : Fin 1))) (Finset.sum_congr rfl fun h _ => by rw [ew h]; rfl)

end Gcn

end
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«159212_j257698038541_1_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«159212_j257698038541_1_alg».proof.Proof.LibLayout
import proofs.«159212_j257698038541_1_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.LibHostLsm.lean ====
/-
  The host's spelling of the row-wise log-softmax shifted by the row maximum, read at an entry: a reduction by maximum
  over axis 1 from -∞, a further maximum against a splat of -∞ (which changes nothing), the result broadcast back to the
  rows; the shifted entries exponentiated and summed over axis 1 from 0, the logarithm of the sums broadcast back and
  subtracted.
-/
import proofs.«159212_j257698038541_1_alg».proof.Proof.LibRowLsm
import Idealize.ShloMosaic.PureOps.Reduce

noncomputable section

namespace Cert.RowLsm

open Idealize.ShloMosaic Idealize.ShloMosaic.ValueIdx

variable {α : Type}

/-- A vector of `a` entries broadcast to the column `[a, 1]`: entry `(p, u)` is entry `p`. -/
theorem bcast_col {a : ℕ} (x : (⟨1, ![a]⟩ : Shape).Idx → α)
    (h : (⟨1, ![a]⟩ : Shape).BroadcastsInDim (⟨2, ![a, 1]⟩ : Shape) ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` broadcast along the rows to `[a, b]`: entry `(p, c)` is the column's entry of row `p`. -/
theorem bcast_rows {a b : ℕ} (x : (⟨2, ![a, 1]⟩ : Shape).Idx → α)
    (h : (⟨2, ![a, 1]⟩ : Shape).BroadcastsInDim (⟨2, ![a, b]⟩ : Shape) ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A number splat over a vector: every entry is the number. -/
theorem bcast_scalar {a : ℕ} (x : (⟨0, ![]⟩ : Shape).Idx → α)
    (h : (⟨0, ![]⟩ : Shape).BroadcastsInDim (⟨1, ![a]⟩ : Shape) ![]) (p : Fin a) :
    broadcastInDim ⟨1, ![a]⟩ ![] h x (ix1 p) = x ix0 :=
  broadcastInDim_apply _ h x (ix1 p) ix0 fun ax => ax.elim0

/-- The host's logarithm and exponential of an array, at an entry. -/
theorem hostLog_apply {s : Shape} (w : FVec Ideal s .f32) (i : s.Idx) : Host.log w i = Ideal.log (w i) := rfl
theorem hostExp_apply {s : Shape} (w : FVec Ideal s .f32) (i : s.Idx) : Host.exp w i = Ideal.exp (w i) := rfl

/-- The host's sum over an axis, at a kept index: the ideal sum from the initial number. -/
theorem hostReduceAdd_apply {s t u : Shape} {axes : List (Fin s.rank)} (x : FVec Ideal s .f32) (init : u.Idx → Ideal .f32)
    (h' : s.ReducesTo axes t) (hu : 0 < u.numel) (j : t.Idx) :
    Host.reduceAdd x init h' hu j = Ideal.hostReduceAdd h' x (init (Shape.Idx.first hu)) j := rfl

/-- The host's row maximum broadcast back to the rows is `rowMax` at every entry of the row. -/
theorem host_rowMax {a b : ℕ} (Y : FVec Ideal ⟨2, ![a, b]⟩ .f32)
    (hr' : (⟨2, ![a, b]⟩ : Shape).ReducesTo [1] (⟨1, ![a]⟩ : Shape))
    (hr : (⟨2, ![a, b]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (hb1 : (⟨1, ![a]⟩ : Shape).BroadcastsInDim (⟨2, ![a, 1]⟩ : Shape) ![0])
    (hb2 : (⟨2, ![a, 1]⟩ : Shape).BroadcastsInDim (⟨2, ![a, b]⟩ : Shape) ![0, 1])
    (p : Fin a) (c : Fin b) :
    broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf Y (constant (F := Ideal) ⟨0, ![]⟩ .f32 0xFF800000#32) hr' hu))) (ix2 p c)
      = rowMax Y p := by
  rw [bcast_rows, bcast_col, maximumf_apply, bcast_scalar, constant_apply, ofBits_neg_inf,
    Host.reduce_eq_fold_single FloatOps.maximumf Y _ hr' hr hu (ix1 p), constant_apply, ofBits_neg_inf,
    max_eq_right bot_le]
  exact congrArg (Finset.fold max ⊥ · (Finset.univ : Finset (Fin b)))
    (funext fun k => congrArg Y (Cert.Attn.Layout.lift_row hr p k))

/-- THE HOST'S SPELLING at an entry. -/
theorem host_lsm {a b : ℕ} (Y : FVec Ideal ⟨2, ![a, b]⟩ .f32)
    (hr' : (⟨2, ![a, b]⟩ : Shape).ReducesTo [1] (⟨1, ![a]⟩ : Shape))
    (hr : (⟨2, ![a, b]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (hb1 : (⟨1, ![a]⟩ : Shape).BroadcastsInDim (⟨2, ![a, 1]⟩ : Shape) ![0])
    (hb2 : (⟨2, ![a, 1]⟩ : Shape).BroadcastsInDim (⟨2, ![a, b]⟩ : Shape) ![0, 1])
    (p : Fin a) (q : Fin b) :
    subf (subf Y (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf Y (constant (F := Ideal) ⟨0, ![]⟩ .f32 0xFF800000#32) hr' hu)))))
      (broadcastInDim ⟨2, ![a, b]⟩ ![0, 1] hb2 (Host.log (broadcastInDim ⟨2, ![a, 1]⟩ ![0] hb1
        (Host.reduceAdd (Host.exp (subf Y (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf Y (constant (F := Ideal) ⟨0, ![]⟩ .f32 0xFF800000#32) hr' hu))))))
          (constant (F := Ideal) ⟨0, ![]⟩ .f32 0x00000000#32) hr' hu)))) (ix2 p q)
      = lsm Y p q := by
  rw [subf_apply, subf_apply, host_rowMax Y hr' hr, bcast_rows, hostLog_apply, bcast_col, hostReduceAdd_apply,
    Ideal.hostReduceAdd_single hr' hr, constant_apply, Ideal.ofBits_zero_f32, zero_add]
  unfold lsm
  refine congrArg (fun s => (Y (ix2 p q) - rowMax Y p) - Ideal.log s) (Finset.sum_congr rfl fun k _ => ?_)
  rw [hostExp_apply, subf_apply, Cert.Attn.Layout.lift_row hr p k, host_rowMax Y hr' hr]
  rfl

end Cert.RowLsm

end
-- ==== Proof.Layers.lean ====
/-
  The layers of a graph convolution network on the extended reals, entry by entry, and their two spellings.

  One hidden layer sends an [a, K] matrix x, a [K, b] weight matrix w and a bias row to the [a, b] matrix whose
  entry (p, q) is  max (∑ k, x(p, k) · w(k, q) + bias(q), 0);  the output layer sends them to the row-wise
  log-softmax of the logits  ∑ k, x(p, k) · w(k, q) + bias(q),  shifted by each row's largest logit.
  Row p of either result depends on row p of x only, so a layer applied to a block of consecutive rows is that block
  of the layer applied to the whole matrix.
  The vector unit spells a layer with a matrix product accumulated into a zero splat (its operands first rounded to a
  narrower format, which is the identity on the extended reals), a one-row broadcast and lane reductions; the host spells
  it with a dot_general, two broadcasts of the bias and reductions over axis 1. Both read, at an entry, as the
  expressions above. No law beyond naming the same entries is used, so nothing here needs a finite operand.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«159212_j257698038541_1_alg».proof.Proof.LibGcnSteps
import proofs.«159212_j257698038541_1_alg».proof.Proof.LibHostLsm

noncomputable section

namespace Cert.GcnNet

open Idealize.ShloMosaic Idealize.ShloMosaic.ValueIdx

variable {a a' b K : ℕ}

/-! ## The layers, entry by entry -/

/-- A bias row added to every row. -/
def biasAdd (z : FVec Ideal ⟨2, ![a, b]⟩ .f32) (bias : FVec Ideal ⟨2, ![1, b]⟩ .f32) : FVec Ideal ⟨2, ![a, b]⟩ .f32 :=
  fun i => z i + bias (ix2 (0 : Fin 1) (i 1))

/-- The logits of a linear layer: the product plus the bias row. -/
def logits (x : FVec Ideal ⟨2, ![a, K]⟩ .f32) (w : FVec Ideal ⟨2, ![K, b]⟩ .f32) (bias : FVec Ideal ⟨2, ![1, b]⟩ .f32) :
    FVec Ideal ⟨2, ![a, b]⟩ .f32 := biasAdd (Gcn.mm x w) bias

/-- A hidden layer: the logits clamped below at zero. -/
def hidden (x : FVec Ideal ⟨2, ![a, K]⟩ .f32) (w : FVec Ideal ⟨2, ![K, b]⟩ .f32) (bias : FVec Ideal ⟨2, ![1, b]⟩ .f32) :
    FVec Ideal ⟨2, ![a, b]⟩ .f32 := Gcn.biasRelu (Gcn.mm x w) bias

/-- The output layer: the row-wise log-softmax of the logits, shifted by the row's largest logit. -/
def outLayer (x : FVec Ideal ⟨2, ![a, K]⟩ .f32) (w : FVec Ideal ⟨2, ![K, b]⟩ .f32) (bias : FVec Ideal ⟨2, ![1, b]⟩ .f32) :
    FVec Ideal ⟨2, ![a, b]⟩ .f32 := fun i => Cert.RowLsm.lsm (logits x w bias) (i 0) (i 1)

theorem logits_apply (x : FVec Ideal ⟨2, ![a, K]⟩ .f32) (w : FVec Ideal ⟨2, ![K, b]⟩ .f32) (bias : FVec Ideal ⟨2, ![1, b]⟩ .f32)
    (p : Fin a) (q : Fin b) :
    logits x w bias (ix2 p q) = (∑ k : Fin K, x (ix2 p k) * w (ix2 k q)) + bias (ix2 (0 : Fin 1) q) := rfl

theorem hidden_apply (x : FVec Ideal ⟨2, ![a, K]⟩ .f32) (w : FVec Ideal ⟨2, ![K, b]⟩ .f32) (bias : FVec Ideal ⟨2, ![1, b]⟩ .f32)
    (p : Fin a) (q : Fin b) :
    hidden x w bias (ix2 p q)
      = max ((∑ k : Fin K, x (ix2 p k) * w (ix2 k q)) + bias (ix2 (0 : Fin 1) q)) (Ideal.ofBits .f32 0x00000000#32) := rfl

theorem outLayer_apply (x : FVec Ideal ⟨2, ![a, K]⟩ .f32) (w : FVec Ideal ⟨2, ![K, b]⟩ .f32) (bias : FVec Ideal ⟨2, ![1, b]⟩ .f32)
    (p : Fin a) (q : Fin b) : outLayer x w bias (ix2 p q) = Cert.RowLsm.lsm (logits x w bias) p q := rfl

/-! ## A row of a layer's result depends on the same row of its input only -/

theorem logits_row (x : FVec Ideal ⟨2, ![a, K]⟩ .f32) (x' : FVec Ideal ⟨2, ![a', K]⟩ .f32) (w : FVec Ideal ⟨2, ![K, b]⟩ .f32)
    (bias : FVec Ideal ⟨2, ![1, b]⟩ .f32) (p : Fin a) (p' : Fin a') (h : ∀ k : Fin K, x (ix2 p k) = x' (ix2 p' k)) (q : Fin b) :
    logits x w bias (ix2 p q) = logits x' w bias (ix2 p' q) := by
  rw [logits_apply, logits_apply]
  exact congrArg (· + bias (ix2 (0 : Fin 1) q)) (Finset.sum_congr rfl fun k _ => by rw [h k])

theorem hidden_row (x : FVec Ideal ⟨2, ![a, K]⟩ .f32) (x' : FVec Ideal ⟨2, ![a', K]⟩ .f32) (w : FVec Ideal ⟨2, ![K, b]⟩ .f32)
    (bias : FVec Ideal ⟨2, ![1, b]⟩ .f32) (p : Fin a) (p' : Fin a') (h : ∀ k : Fin K, x (ix2 p k) = x' (ix2 p' k)) (q : Fin b) :
    hidden x w bias (ix2 p q) = hidden x' w bias (ix2 p' q) := by
  rw [hidden_apply, hidden_apply]
  exact congrArg (fun s => max (s + bias (ix2 (0 : Fin 1) q)) (Ideal.ofBits .f32 0x00000000#32))
    (Finset.sum_congr rfl fun k _ => by rw [h k])

/-- The shifted log-softmax of a row is a function of that row. -/
theorem lsm_row (Y : (⟨2, ![a, b]⟩ : Shape).Idx → EReal) (Y' : (⟨2, ![a', b]⟩ : Shape).Idx → EReal) (p : Fin a) (p' : Fin a')
    (h : ∀ k : Fin b, Y (ix2 p k) = Y' (ix2 p' k)) (q : Fin b) : Cert.RowLsm.lsm Y p q = Cert.RowLsm.lsm Y' p' q := by
  have hM : Cert.RowLsm.rowMax Y p = Cert.RowLsm.rowMax Y' p' := by
    unfold Cert.RowLsm.rowMax
    exact congrArg (Finset.fold max ⊥ · (Finset.univ : Finset (Fin b))) (funext h)
  unfold Cert.RowLsm.lsm
  rw [hM, h q]
  exact congrArg (fun s => (Y' (ix2 p' q) - Cert.RowLsm.rowMax Y' p') - Ideal.log s)
    (Finset.sum_congr rfl fun k _ => by rw [h k])

theorem outLayer_row (x : FVec Ideal ⟨2, ![a, K]⟩ .f32) (x' : FVec Ideal ⟨2, ![a', K]⟩ .f32) (w : FVec Ideal ⟨2, ![K, b]⟩ .f32)
    (bias : FVec Ideal ⟨2, ![1, b]⟩ .f32) (p : Fin a) (p' : Fin a') (h : ∀ k : Fin K, x (ix2 p k) = x' (ix2 p' k)) (q : Fin b) :
    outLayer x w bias (ix2 p q) = outLayer x' w bias (ix2 p' q) := by
  rw [outLayer_apply, outLayer_apply]
  exact lsm_row _ _ p p' (fun k => logits_row x x' w bias p p' h k) q

/-! ## The plain contraction: the left operand's columns with the right operand's rows -/

theorem plain_rank : (DotDims.plain a K b).contr.rank = 1 := rfl
theorem plain_size : (DotDims.plain a K b).contr.size ⟨0, by rw [plain_rank]; omega⟩ = K := rfl
theorem plain_l0 (i : (⟨2, ![a, b]⟩ : Shape).Idx) (q : (DotDims.plain a K b).contr.Idx) :
    ((DotDims.plain a K b).lhsIdx i q 0).val = (i 0).val := by
  unfold DotDims.lhsIdx
  rw [dif_neg (show ¬ (0 : Fin 2) ∈ (DotDims.plain a K b).lhsBatch from List.not_mem_nil),
    dif_pos (show (0 : Fin 2) ∈ (DotDims.plain a K b).lhsNonContracting from List.mem_singleton.mpr rfl)]
  rfl
theorem plain_l1 (i : (⟨2, ![a, b]⟩ : Shape).Idx) (q : (DotDims.plain a K b).contr.Idx) :
    ((DotDims.plain a K b).lhsIdx i q 1).val = (q ⟨0, by rw [plain_rank]; omega⟩).val :=
  (DotDims.plain a K b).lhsIdx_val_of_single rfl i q
theorem plain_r0 (i : (⟨2, ![a, b]⟩ : Shape).Idx) (q : (DotDims.plain a K b).contr.Idx) :
    ((DotDims.plain a K b).rhsIdx i q 0).val = (q ⟨0, by rw [plain_rank]; omega⟩).val :=
  (DotDims.plain a K b).rhsIdx_val_of_single rfl i q
theorem plain_r1 (i : (⟨2, ![a, b]⟩ : Shape).Idx) (q : (DotDims.plain a K b).contr.Idx) :
    ((DotDims.plain a K b).rhsIdx i q 1).val = (i 1).val := by
  unfold DotDims.rhsIdx
  rw [dif_neg (show ¬ (1 : Fin 2) ∈ (DotDims.plain a K b).rhsBatch from List.not_mem_nil),
    dif_pos (show (1 : Fin 2) ∈ (DotDims.plain a K b).rhsNonContracting from List.mem_singleton.mpr rfl)]
  rfl

/-! ## The vector unit's spelling -/

/-- The vector unit's logits at an entry. -/
theorem vec_logits (D : DotDims ⟨2, ![a, K]⟩ ⟨2, ![K, b]⟩ ⟨2, ![a, b]⟩) (hD : D = DotDims.plain a K b)
    (x : FVec Ideal ⟨2, ![a, K]⟩ .f32) (w : FVec Ideal ⟨2, ![K, b]⟩ .f32) (bias : FVec Ideal ⟨2, ![1, b]⟩ .f32)
    (hcx : (⟨2, ![a, K]⟩ : Shape).ShapeCasts ⟨2, ![a, K]⟩) (hcb : (⟨2, ![1, b]⟩ : Shape).ShapeCasts ⟨2, ![1, b]⟩)
    (hlt : FTy.bits .bf16 < FTy.bits .f32) (hbc : (⟨2, ![1, b]⟩ : Shape).Broadcasts ⟨2, ![a, b]⟩) (p : Fin a) (q : Fin b) :
    addf (matmul D none (truncf .bf16 (shapeCast ⟨2, ![a, K]⟩ x hcx) hlt) (truncf .bf16 w hlt)
        (constant (F := Ideal) ⟨2, ![a, b]⟩ .f32 0x00000000#32))
      (broadcastTo ⟨2, ![a, b]⟩ (shapeCast ⟨2, ![1, b]⟩ bias hcb) hbc) (ix2 p q) = logits x w bias (ix2 p q) := by
  subst hD
  rw [addf_apply, MatmulIx.matmul_zero_ix2 (DotDims.plain a K b) plain_rank plain_size plain_l0 plain_l1 plain_r0 plain_r1,
    broadcastTo_1b_ab_apply, shapeCast_self, shapeCast_self]
  rfl

/-- The vector unit's hidden layer at an entry. -/
theorem vec_hidden (D : DotDims ⟨2, ![a, K]⟩ ⟨2, ![K, b]⟩ ⟨2, ![a, b]⟩) (hD : D = DotDims.plain a K b)
    (x : FVec Ideal ⟨2, ![a, K]⟩ .f32) (w : FVec Ideal ⟨2, ![K, b]⟩ .f32) (bias : FVec Ideal ⟨2, ![1, b]⟩ .f32)
    (hcx : (⟨2, ![a, K]⟩ : Shape).ShapeCasts ⟨2, ![a, K]⟩) (hcb : (⟨2, ![1, b]⟩ : Shape).ShapeCasts ⟨2, ![1, b]⟩)
    (hlt : FTy.bits .bf16 < FTy.bits .f32) (hbc : (⟨2, ![1, b]⟩ : Shape).Broadcasts ⟨2, ![a, b]⟩) (p : Fin a) (q : Fin b) :
    maximumf (addf (matmul D none (truncf .bf16 (shapeCast ⟨2, ![a, K]⟩ x hcx) hlt) (truncf .bf16 w hlt)
        (constant (F := Ideal) ⟨2, ![a, b]⟩ .f32 0x00000000#32))
      (broadcastTo ⟨2, ![a, b]⟩ (shapeCast ⟨2, ![1, b]⟩ bias hcb) hbc))
      (broadcast ⟨2, ![a, b]⟩ (Scalar.ofBits (F := Ideal) .f32 0x00000000#32)) (ix2 p q) = hidden x w bias (ix2 p q) := by
  rw [maximumf_apply, vec_logits D hD x w bias hcx hcb hlt hbc p q, broadcast_apply]
  rfl

/-- The vector unit's output layer at an entry. -/
theorem vec_outLayer (D : DotDims ⟨2, ![a, K]⟩ ⟨2, ![K, b]⟩ ⟨2, ![a, b]⟩) (hD : D = DotDims.plain a K b)
    (x : FVec Ideal ⟨2, ![a, K]⟩ .f32) (w : FVec Ideal ⟨2, ![K, b]⟩ .f32) (bias : FVec Ideal ⟨2, ![1, b]⟩ .f32)
    (hcx : (⟨2, ![a, K]⟩ : Shape).ShapeCasts ⟨2, ![a, K]⟩) (hcb : (⟨2, ![1, b]⟩ : Shape).ShapeCasts ⟨2, ![1, b]⟩)
    (hlt : FTy.bits .bf16 < FTy.bits .f32) (hbc : (⟨2, ![1, b]⟩ : Shape).Broadcasts ⟨2, ![a, b]⟩)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc1 : (⟨2, ![a, 1]⟩ : Shape).Broadcasts ⟨2, ![a, b]⟩)
    (v : FVec Ideal ⟨2, ![a, b]⟩ .f32)
    (hv : v = addf (matmul D none (truncf .bf16 (shapeCast ⟨2, ![a, K]⟩ x hcx) hlt) (truncf .bf16 w hlt)
        (constant (F := Ideal) ⟨2, ![a, b]⟩ .f32 0x00000000#32))
      (broadcastTo ⟨2, ![a, b]⟩ (shapeCast ⟨2, ![1, b]⟩ bias hcb) hbc)) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc1))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc1)))
          0x00000000#32 hred hφ hadd) hcast)) hbc1) (ix2 p q)
      = outLayer x w bias (ix2 p q) := by
  rw [Cert.RowLsm.vec_lsm v hred hφ hmax hadd hcast hbc1 p q, outLayer_apply]
  refine lsm_row v (logits x w bias) p p (fun k => ?_) q
  rw [hv]
  exact vec_logits D hD x w bias hcx hcb hlt hbc p k

/-! ## The host's spelling -/

/-- The host's logits: a dot_general plus the bias vector broadcast to a row and then to the matrix. -/
theorem host_logits (D : DotDims ⟨2, ![a, K]⟩ ⟨2, ![K, b]⟩ ⟨2, ![a, b]⟩) (hD : D = DotDims.plain a K b)
    (x : FVec Ideal ⟨2, ![a, K]⟩ .f32) (w : FVec Ideal ⟨2, ![K, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    logits x w (shapeCast ⟨2, ![1, b]⟩ bias hc)
      = addf (Host.dotGeneral D none x w) (broadcastInDim ⟨2, ![a, b]⟩ ![0, 1] h2 (broadcastInDim ⟨2, ![1, b]⟩ ![1] h1 bias)) := by
  subst hD
  funext i
  obtain ⟨p, q, rfl⟩ : ∃ (p : Fin a) (q : Fin b), i = ix2 p q := ⟨i 0, i 1, eq_ix2 i⟩
  have e1 : shapeCast ⟨2, ![1, b]⟩ bias hc (ix2 (0 : Fin 1) q) = bias (ix1 q) := shapeCast_a_1a_apply bias hc 0 q
  have e2 : broadcastInDim ⟨2, ![a, b]⟩ ![0, 1] h2 (broadcastInDim ⟨2, ![1, b]⟩ ![1] h1 bias) (ix2 p q)
      = broadcastInDim ⟨2, ![1, b]⟩ ![1] h1 bias (ix2 (0 : Fin 1) q) := broadcastInDim_oneRow_apply h2 _ p q
  have e3 : broadcastInDim ⟨2, ![1, b]⟩ ![1] h1 bias (ix2 (0 : Fin 1) q) = bias (ix1 q) :=
    broadcastInDim_apply ![1] h1 bias (ix2 (0 : Fin 1) q) (ix1 q) (fun c => by
      match c with
      | ⟨0, _⟩ =>
        show q.val = if b = 1 then 0 else q.val
        split
        · have := q.isLt; omega
        · rfl)
  rw [logits_apply, addf_apply, e1, e2, e3,
    MatmulIx.dotGeneral_ix2 (DotDims.plain a K b) plain_rank plain_size plain_l0 plain_l1 plain_r0 plain_r1 none x w p q]

/-- The host's hidden layer. -/
theorem host_hidden (D : DotDims ⟨2, ![a, K]⟩ ⟨2, ![K, b]⟩ ⟨2, ![a, b]⟩) (hD : D = DotDims.plain a K b)
    (x : FVec Ideal ⟨2, ![a, K]⟩ .f32) (w : FVec Ideal ⟨2, ![K, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    hidden x w (shapeCast ⟨2, ![1, b]⟩ bias hc)
      = maximumf (addf (Host.dotGeneral D none x w)
            (broadcastInDim ⟨2, ![a, b]⟩ ![0, 1] h2 (broadcastInDim ⟨2, ![1, b]⟩ ![1] h1 bias)))
          (broadcastInDim ⟨2, ![a, b]⟩ ![] h0 (constant (F := Ideal) ⟨0, ![]⟩ .f32 0x00000000#32)) := by
  subst hD
  unfold hidden
  rw [Gcn.biasRelu_eq_host (Gcn.mm x w) bias hc h1 h2 h0,
    Gcn.mm_eq_dotGeneral (DotDims.plain a K b) plain_rank plain_size plain_l0 plain_l1 plain_r0 plain_r1 none x w]

/-- The host's output layer: its shifted log-softmax of its logits. -/
theorem host_outLayer (D : DotDims ⟨2, ![a, K]⟩ ⟨2, ![K, b]⟩ ⟨2, ![a, b]⟩) (hD : D = DotDims.plain a K b)
    (x : FVec Ideal ⟨2, ![a, K]⟩ .f32) (w : FVec Ideal ⟨2, ![K, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (hr' : (⟨2, ![a, b]⟩ : Shape).ReducesTo [1] (⟨1, ![a]⟩ : Shape))
    (hr : (⟨2, ![a, b]⟩ : Shape).Reduces [1] (⟨1, ![a]⟩ : Shape))
    (hu : 0 < (⟨0, ![]⟩ : Shape).numel)
    (hb0 : (⟨0, ![]⟩ : Shape).BroadcastsInDim (⟨1, ![a]⟩ : Shape) ![])
    (hb1 : (⟨1, ![a]⟩ : Shape).BroadcastsInDim (⟨2, ![a, 1]⟩ : Shape) ![0])
    (hb2 : (⟨2, ![a, 1]⟩ : Shape).BroadcastsInDim (⟨2, ![a, b]⟩ : Shape) ![0, 1])
    (Y : FVec Ideal ⟨2, ![a, b]⟩ .f32)
    (hY : Y = addf (Host.dotGeneral D none x w) (broadcastInDim ⟨2, ![a, b]⟩ ![0, 1] h2 (broadcastInDim ⟨2, ![1, b]⟩ ![1] h1 bias))) :
    outLayer x w (shapeCast ⟨2, ![1, b]⟩ bias hc)
      = subf (subf Y (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf Y (constant (F := Ideal) ⟨0, ![]⟩ .f32 0xFF800000#32) hr' hu)))))
        (broadcastInDim ⟨2, ![a, b]⟩ ![0, 1] hb2 (Host.log (broadcastInDim ⟨2, ![a, 1]⟩ ![0] hb1
          (Host.reduceAdd (Host.exp (subf Y (broadcastInDim ⟨2, ![a, b]⟩ ![0, 1] hb2 (broadcastInDim ⟨2, ![a, 1]⟩ ![0] hb1
            (maximumf (broadcastInDim ⟨1, ![a]⟩ ![] hb0 (constant (F := Ideal) ⟨0, ![]⟩ .f32 0xFF800000#32))
              (Host.reduce FloatOps.maximumf Y (constant (F := Ideal) ⟨0, ![]⟩ .f32 0xFF800000#32) hr' hu))))))
            (constant (F := Ideal) ⟨0, ![]⟩ .f32 0x00000000#32) hr' hu)))) := by
  funext i
  obtain ⟨p, q, rfl⟩ : ∃ (p : Fin a) (q : Fin b), i = ix2 p q := ⟨i 0, i 1, eq_ix2 i⟩
  rw [Cert.RowLsm.host_lsm Y hr' hr hu hb0 hb1 hb2 p q, outLayer_apply, hY, ← host_logits D hD x w bias hc h1 h2]

end Cert.GcnNet

end
-- ==== Proof.KRegion0.lean ====
/-
  Pipeline 0 of the kernel program, at the ideal values: what its output array holds when the pipeline ends.

  The grid has ten points; point t stages rows 5000 t … 5000 t + 4999 of the input matrix, the whole weight matrix and the
  whole bias row, and writes back rows 5000 t … 5000 t + 4999 of the output. The body stores the hidden layer of the
  staged blocks. A row of a hidden layer depends on the same row of the input only, so what point t writes back is block t
  of the hidden layer of the WHOLE input matrix; the ten blocks tile the output array, which therefore ends holding the
  hidden layer of the arrays the pipeline was entered with.
-/
import proofs.«159212_j257698038541_1_alg».proof.Proof.Gen.KernelIdeal.Frame
import proofs.«159212_j257698038541_1_alg».proof.Proof.Layers
import Idealize.ShloMosaic.Lib.Pipeline.Value
import Idealize.ShloMosaic.Lib.ValueIdx

set_option maxRecDepth 16384

noncomputable section

namespace Cert.KernelIdeal.Net

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's one store at an entry of the block: the hidden layer of the three loaded blocks. -/
theorem pay0_apply (x0 : Vec Ideal S5000x256 .f32) (x1 : Vec Ideal S256x256 .f32) (x2 : Vec Ideal S1x256 .f32)
    (p : Fin 5000) (q : Fin 256) :
    k0_pay1 x0 x1 x2 (ix2 p q) = Cert.GcnNet.hidden (a := 5000) (K := 256) (b := 256) x0 x1 x2 (ix2 p q) := by
  unfold k0_pay1
  exact Cert.GcnNet.vec_hidden (a := 5000) (K := 256) (b := 256) dot_S5000x256_S256x256_S5000x256_1_0_0_1_n_n rfl x0 x1 x2
    shapeCasts_S5000x256_S5000x256 shapeCasts_S1x256_S1x256 bitsLt_bf16_f32 broadcasts_S1x256_S5000x256 p q

/-- The printed index maps over the grid: the input matrix and the output move one block of rows per point; the weight
    matrix and the bias row stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input matrix's block at point t is rows 5000 t … 5000 t + 4999 of the array. -/
theorem iblk0_0_apply (c : Dev nD) (t : Fin cfg0.N) (p : Fin 5000) (k : Fin 256) (P : Fin 50000)
    (hP : P.val = t.val * 5000 + p.val) :
    (iblk0 V c 0 t : Vec Ideal S5000x256 .f32) (ix2 p k) = (V c main_v13 : S50000x256.Idx → EReal) (ix2 P k) := by
  obtain ⟨e0, e1, -⟩ := idx0 t
  unfold iblk0
  rw [View.read_apply]
  show V c main_v13 _ = V c main_v13 _
  refine congrArg (V c main_v13) (funext fun a => Fin.ext ?_)
  match a with
  | ⟨0, _⟩ => show win0_0.index t (0 : Fin 2) * 5000 + 1 * p.val = P.val; rw [e0, hP]; omega
  | ⟨1, _⟩ => show win0_0.index t (1 : Fin 2) * 256 + 1 * k.val = k.val; rw [e1]; omega

/-- The weight matrix's block at every point is the whole array. -/
theorem iblk0_1_eq (c : Dev nD) (t : Fin cfg0.N) :
    (iblk0 V c 1 t : Vec Ideal S256x256 .f32) = (V c main_arg4 : S256x256.Idx → EReal) := by
  obtain ⟨-, -, e2, e3, -⟩ := idx0 t
  funext y
  unfold iblk0
  rw [View.read_apply]
  show V c main_arg4 _ = V c main_arg4 y
  refine congrArg (V c main_arg4) (funext fun a => Fin.ext ?_)
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The bias row's block at every point is the whole array. -/
theorem iblk0_2_eq (c : Dev nD) (t : Fin cfg0.N) :
    (iblk0 V c 2 t : Vec Ideal S1x256 .f32) = (V c main_v14 : S1x256.Idx → EReal) := by
  obtain ⟨-, -, -, -, e4, e5, -⟩ := idx0 t
  funext y
  unfold iblk0
  rw [View.read_apply]
  show V c main_v14 _ = V c main_v14 y
  refine congrArg (V c main_v14) (funext fun a => Fin.ext ?_)
  match a with
  | ⟨0, _⟩ => show win0_2.index t (0 : Fin 2) * 1 + 1 * (y 0).val = (y 0).val; rw [e4]; omega
  | ⟨1, _⟩ => show win0_2.index t (1 : Fin 2) * 256 + 1 * (y 1).val = (y 1).val; rw [e5]; omega

/-- What point t writes back is block t of the hidden layer of the arrays as the pipeline finds them. -/
theorem flushed0 (c : Dev nD) (t : Fin cfg0.N) :
    (dat0 V c).flushed 3 t = ((cfg0.win 3).blk t).view.read (Elt Ideal)
      (Cert.GcnNet.hidden (a := 50000) (K := 256) (b := 256) (V c main_v13) (V c main_arg4) (V c main_v14)) := by
  show (cfg0.win 3).cut (grid0.coords t) ((dat0 V c).after 3 t) = _
  rw [after0_3]
  unfold out0_3
  rw [View.canon_unit_zero hz0]
  simp only [View.ld_unit_zero (S := S5000x256) hz0, View.ld_unit_zero (S := S256x256) hz0, View.ld_unit_zero (S := S1x256) hz0]
  funext j
  obtain ⟨p, q, rfl⟩ : ∃ (p : Fin 5000) (q : Fin 256), j = ix2 p q := ⟨j 0, j 1, eq_ix2 j⟩
  obtain ⟨-, -, -, -, -, -, e6, e7⟩ := idx0 t
  have hN : cfg0.N = 10 := N_0
  have hP : t.val * 5000 + p.val < 50000 := by have := lt_of_lt_of_eq t.isLt hN; omega
  show k0_pay1 (iblk0 V c 0 t) (iblk0 V c 1 t) (iblk0 V c 2 t) (ix2 p q)
    = Cert.GcnNet.hidden (a := 50000) (K := 256) (b := 256) (V c main_v13) (V c main_arg4) (V c main_v14) (((cfg0.win 3).blk t).view.emb (ix2 p q))
  have hemb : ((cfg0.win 3).blk t).view.emb (ix2 p q) = ix2 (⟨t.val * 5000 + p.val, hP⟩ : Fin 50000) q := by
    funext a; apply Fin.ext
    match a with
    | ⟨0, _⟩ => show win0_3.index t (0 : Fin 2) * 5000 + 1 * p.val = t.val * 5000 + p.val; rw [e6]; omega
    | ⟨1, _⟩ => show win0_3.index t (1 : Fin 2) * 256 + 1 * q.val = q.val; rw [e7]; omega
  rw [hemb, pay0_apply, iblk0_1_eq, iblk0_2_eq]
  exact Cert.GcnNet.hidden_row _ _ _ _ p ⟨_, hP⟩ (fun k => iblk0_0_apply V c t p k ⟨_, hP⟩ rfl) q

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v15).slice (win0_3.rect t)).set ↔ _
  rw [View.set_slice_whole, Rect.mem_set_unit]
  exact Iff.rfl

/-- THE OUTPUT ARRAY when the pipeline ends: the hidden layer of the arrays it was entered with. Row r is written back by
    point r / 5000. -/
theorem final0 (c : Dev nD) : (dat0 V c).arrAt 3 cfg0.N
    = Cert.GcnNet.hidden (a := 50000) (K := 256) (b := 256) (V c main_v13) (V c main_arg4) (V c main_v14) :=
  (dat0 V c).arrAt_eq_of_cover 3 _ (fun t _ => flushed0 V c t) fun i => by
    have h0 : (i 0).val < 50000 := (i 0).isLt
    have h1 : (i 1).val < 256 := (i 1).isLt
    have hN : cfg0.N = 10 := N_0
    have ht : (i 0).val / 5000 < cfg0.N := by rw [hN]; omega
    obtain ⟨-, -, -, -, -, -, e6, e7⟩ := idx0 ⟨(i 0).val / 5000, ht⟩
    refine ⟨⟨(i 0).val / 5000, ht⟩, flush0_3 _, ?_⟩
    rw [mem_blk0]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e6]
      show (i 0).val / 5000 * 5000 ≤ (i 0).val ∧ (i 0).val < (i 0).val / 5000 * 5000 + 5000
      omega
    | ⟨1, _⟩ =>
      show win0_3.index ⟨(i 0).val / 5000, ht⟩ (1 : Fin 2) * 256 ≤ (i 1).val
        ∧ (i 1).val < win0_3.index ⟨(i 0).val / 5000, ht⟩ (1 : Fin 2) * 256 + 256
      rw [e7]
      omega

end Cert.KernelIdeal.Net

end
-- ==== Proof.KRegion1.lean ====
/-
  Pipeline 1 of the kernel program, at the ideal values: what its output array holds when the pipeline ends.

  The grid has ten points; point t stages rows 5000 t … 5000 t + 4999 of the input matrix, the whole weight matrix and the
  whole bias row, and writes back rows 5000 t … 5000 t + 4999 of the output. The body stores the hidden layer (product, bias row, clamp at zero) of the
  staged blocks. A row of that layer depends on the same row of the input only, so what point t writes back is block t
  of the layer applied to the WHOLE input matrix; the ten blocks tile the output array, which therefore ends holding the
  layer of the arrays the pipeline was entered with.
-/
import proofs.«159212_j257698038541_1_alg».proof.Proof.Gen.KernelIdeal.Frame
import proofs.«159212_j257698038541_1_alg».proof.Proof.Layers
import Idealize.ShloMosaic.Lib.Pipeline.Value
import Idealize.ShloMosaic.Lib.ValueIdx

set_option maxRecDepth 16384

noncomputable section

namespace Cert.KernelIdeal.Net

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's one store at an entry of the block: the layer of the three loaded blocks. -/
theorem pay1_apply (x0 : Vec Ideal S5000x256 .f32) (x1 : Vec Ideal S256x256 .f32) (x2 : Vec Ideal S1x256 .f32)
    (p : Fin 5000) (q : Fin 256) :
    k1_pay1 x0 x1 x2 (ix2 p q) = Cert.GcnNet.hidden (a := 5000) (K := 256) (b := 256) x0 x1 x2 (ix2 p q) := by
  unfold k1_pay1
  exact Cert.GcnNet.vec_hidden (a := 5000) (K := 256) (b := 256) dot_S5000x256_S256x256_S5000x256_1_0_0_1_n_n rfl x0 x1 x2
    shapeCasts_S5000x256_S5000x256 shapeCasts_S1x256_S1x256 bitsLt_bf16_f32 broadcasts_S1x256_S5000x256 p q

/-- The printed index maps over the grid: the input matrix and the output move one block of rows per point; the weight
    matrix and the bias row stay. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input matrix's block at point t is rows 5000 t … 5000 t + 4999 of the array. -/
theorem iblk1_0_apply (c : Dev nD) (t : Fin cfg1.N) (p : Fin 5000) (k : Fin 256) (P : Fin 50000)
    (hP : P.val = t.val * 5000 + p.val) :
    (iblk1 V c 0 t : Vec Ideal S5000x256 .f32) (ix2 p k) = (V c main_v25 : S50000x256.Idx → EReal) (ix2 P k) := by
  obtain ⟨e0, e1, -⟩ := idx1 t
  unfold iblk1
  rw [View.read_apply]
  show V c main_v25 _ = V c main_v25 _
  refine congrArg (V c main_v25) (funext fun a => Fin.ext ?_)
  match a with
  | ⟨0, _⟩ => show win1_0.index t (0 : Fin 2) * 5000 + 1 * p.val = P.val; rw [e0, hP]; omega
  | ⟨1, _⟩ => show win1_0.index t (1 : Fin 2) * 256 + 1 * k.val = k.val; rw [e1]; omega

/-- The weight matrix's block at every point is the whole array. -/
theorem iblk1_1_eq (c : Dev nD) (t : Fin cfg1.N) :
    (iblk1 V c 1 t : Vec Ideal S256x256 .f32) = (V c main_arg6 : S256x256.Idx → EReal) := by
  obtain ⟨-, -, e2, e3, -⟩ := idx1 t
  funext y
  unfold iblk1
  rw [View.read_apply]
  show V c main_arg6 _ = V c main_arg6 y
  refine congrArg (V c main_arg6) (funext fun a => Fin.ext ?_)
  match a with
  | ⟨0, _⟩ => show win1_1.index t (0 : Fin 2) * 256 + 1 * (y 0).val = (y 0).val; rw [e2]; omega
  | ⟨1, _⟩ => show win1_1.index t (1 : Fin 2) * 256 + 1 * (y 1).val = (y 1).val; rw [e3]; omega

/-- The bias row's block at every point is the whole array. -/
theorem iblk1_2_eq (c : Dev nD) (t : Fin cfg1.N) :
    (iblk1 V c 2 t : Vec Ideal S1x256 .f32) = (V c main_v26 : S1x256.Idx → EReal) := by
  obtain ⟨-, -, -, -, e4, e5, -⟩ := idx1 t
  funext y
  unfold iblk1
  rw [View.read_apply]
  show V c main_v26 _ = V c main_v26 y
  refine congrArg (V c main_v26) (funext fun a => Fin.ext ?_)
  match a with
  | ⟨0, _⟩ => show win1_2.index t (0 : Fin 2) * 1 + 1 * (y 0).val = (y 0).val; rw [e4]; omega
  | ⟨1, _⟩ => show win1_2.index t (1 : Fin 2) * 256 + 1 * (y 1).val = (y 1).val; rw [e5]; omega

/-- What point t writes back is block t of the layer of the arrays as the pipeline finds them. -/
theorem flushed1 (c : Dev nD) (t : Fin cfg1.N) :
    (dat1 V c).flushed 3 t = ((cfg1.win 3).blk t).view.read (Elt Ideal)
      (Cert.GcnNet.hidden (a := 50000) (K := 256) (b := 256) (V c main_v25) (V c main_arg6) (V c main_v26)) := by
  show (cfg1.win 3).cut (grid1.coords t) ((dat1 V c).after 3 t) = _
  rw [after1_3]
  unfold out1_3
  rw [View.canon_unit_zero hz1]
  simp only [View.ld_unit_zero (S := S5000x256) hz1, View.ld_unit_zero (S := S256x256) hz1, View.ld_unit_zero (S := S1x256) hz1]
  funext j
  obtain ⟨p, q, rfl⟩ : ∃ (p : Fin 5000) (q : Fin 256), j = ix2 p q := ⟨j 0, j 1, eq_ix2 j⟩
  obtain ⟨-, -, -, -, -, -, e6, e7⟩ := idx1 t
  have hN : cfg1.N = 10 := N_1
  have hP : t.val * 5000 + p.val < 50000 := by have := lt_of_lt_of_eq t.isLt hN; omega
  show k1_pay1 (iblk1 V c 0 t) (iblk1 V c 1 t) (iblk1 V c 2 t) (ix2 p q)
    = Cert.GcnNet.hidden (a := 50000) (K := 256) (b := 256) (V c main_v25) (V c main_arg6) (V c main_v26) (((cfg1.win 3).blk t).view.emb (ix2 p q))
  have hemb : ((cfg1.win 3).blk t).view.emb (ix2 p q) = ix2 (⟨t.val * 5000 + p.val, hP⟩ : Fin 50000) q := by
    funext a; apply Fin.ext
    match a with
    | ⟨0, _⟩ => show win1_3.index t (0 : Fin 2) * 5000 + 1 * p.val = t.val * 5000 + p.val; rw [e6]; omega
    | ⟨1, _⟩ => show win1_3.index t (1 : Fin 2) * 256 + 1 * q.val = q.val; rw [e7]; omega
  rw [hemb, pay1_apply, iblk1_1_eq, iblk1_2_eq]
  exact Cert.GcnNet.hidden_row _ _ _ _ p ⟨_, hP⟩ (fun k => iblk1_0_apply V c t p k ⟨_, hP⟩ rfl) q

/-- An index of the output array is in point t's block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v27).slice (win1_3.rect t)).set ↔ _
  rw [View.set_slice_whole, Rect.mem_set_unit]
  exact Iff.rfl

/-- THE OUTPUT ARRAY when the pipeline ends: the layer of the arrays it was entered with. Row r is written back by
    point r / 5000. -/
theorem final1 (c : Dev nD) : (dat1 V c).arrAt 3 cfg1.N
    = Cert.GcnNet.hidden (a := 50000) (K := 256) (b := 256) (V c main_v25) (V c main_arg6) (V c main_v26) :=
  (dat1 V c).arrAt_eq_of_cover 3 _ (fun t _ => flushed1 V c t) fun i => by
    have h0 : (i 0).val < 50000 := (i 0).isLt
    have h1 : (i 1).val < 256 := (i 1).isLt
    have hN : cfg1.N = 10 := N_1
    have ht : (i 0).val / 5000 < cfg1.N := by rw [hN]; omega
    obtain ⟨-, -, -, -, -, -, e6, e7⟩ := idx1 ⟨(i 0).val / 5000, ht⟩
    refine ⟨⟨(i 0).val / 5000, ht⟩, flush1_3 _, ?_⟩
    rw [mem_blk1]
    intro a
    match a with
    | ⟨0, _⟩ =>
      show win1_3.index ⟨(i 0).val / 5000, ht⟩ (0 : Fin 2) * 5000 ≤ (i 0).val
        ∧ (i 0).val < win1_3.index ⟨(i 0).val / 5000, ht⟩ (0 : Fin 2) * 5000 + 5000
      rw [e6]
      show (i 0).val / 5000 * 5000 ≤ (i 0).val ∧ (i 0).val < (i 0).val / 5000 * 5000 + 5000
      omega
    | ⟨1, _⟩ =>
      show win1_3.index ⟨(i 0).val / 5000, ht⟩ (1 : Fin 2) * 256 ≤ (i 1).val
        ∧ (i 1).val < win1_3.index ⟨(i 0).val / 5000, ht⟩ (1 : Fin 2) * 256 + 256
      rw [e7]
      omega

end Cert.KernelIdeal.Net

end
-- ==== Proof.KRegion2.lean ====
/-
  Pipeline 2 of the kernel program, at the ideal values: what its output array holds when the pipeline ends.

  The grid has ten points; point t stages rows 5000 t … 5000 t + 4999 of the input matrix, the whole weight matrix and the
  whole bias row, and writes back rows 5000 t … 5000 t + 4999 of the output. The body stores the output layer (product, bias row, row-wise log-softmax shifted by the row's largest logit) of the
  staged blocks. A row of that layer depends on the same row of the input only, so what point t writes back is block t
  of the layer applied to the WHOLE input matrix; the ten blocks tile the output array, which therefore ends holding the
  layer of the arrays the pipeline was entered with.
-/
import proofs.«159212_j257698038541_1_alg».proof.Proof.Gen.KernelIdeal.Frame
import proofs.«159212_j257698038541_1_alg».proof.Proof.Layers
import Idealize.ShloMosaic.Lib.Pipeline.Value
import Idealize.ShloMosaic.Lib.ValueIdx

set_option maxRecDepth 16384

noncomputable section

namespace Cert.KernelIdeal.Net

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's one store at an entry of the block: the layer of the three loaded blocks. -/
theorem pay2_apply (x0 : Vec Ideal S5000x256 .f32) (x1 : Vec Ideal S256x40 .f32) (x2 : Vec Ideal S1x40 .f32)
    (p : Fin 5000) (q : Fin 40) :
    k2_pay1 x0 x1 x2 (ix2 p q) = Cert.GcnNet.outLayer (a := 5000) (K := 256) (b := 40) x0 x1 x2 (ix2 p q) := by
  unfold k2_pay1
  exact Cert.GcnNet.vec_outLayer (a := 5000) (K := 256) (b := 40) dot_S5000x256_S256x40_S5000x40_1_0_0_1_n_n rfl x0 x1 x2
    shapeCasts_S5000x256_S5000x256 shapeCasts_S1x40_S1x40 bitsLt_bf16_f32 broadcasts_S1x40_S5000x40
    reduces_S5000x40_S5000 (.inl rfl) rfl rfl shapeCasts_S5000_S5000x1 broadcasts_S5000x1_S5000x40 _ rfl p q

/-- The printed index maps over the grid: the input matrix and the output move one block of rows per point; the weight
    matrix and the bias row stay. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input matrix's block at point t is rows 5000 t … 5000 t + 4999 of the array. -/
theorem iblk2_0_apply (c : Dev nD) (t : Fin cfg2.N) (p : Fin 5000) (k : Fin 256) (P : Fin 50000)
    (hP : P.val = t.val * 5000 + p.val) :
    (iblk2 V c 0 t : Vec Ideal S5000x256 .f32) (ix2 p k) = (V c main_v37 : S50000x256.Idx → EReal) (ix2 P k) := by
  obtain ⟨e0, e1, -⟩ := idx2 t
  unfold iblk2
  rw [View.read_apply]
  show V c main_v37 _ = V c main_v37 _
  refine congrArg (V c main_v37) (funext fun a => Fin.ext ?_)
  match a with
  | ⟨0, _⟩ => show win2_0.index t (0 : Fin 2) * 5000 + 1 * p.val = P.val; rw [e0, hP]; omega
  | ⟨1, _⟩ => show win2_0.index t (1 : Fin 2) * 256 + 1 * k.val = k.val; rw [e1]; omega

/-- The weight matrix's block at every point is the whole array. -/
theorem iblk2_1_eq (c : Dev nD) (t : Fin cfg2.N) :
    (iblk2 V c 1 t : Vec Ideal S256x40 .f32) = (V c main_arg8 : S256x40.Idx → EReal) := by
  obtain ⟨-, -, e2, e3, -⟩ := idx2 t
  funext y
  unfold iblk2
  rw [View.read_apply]
  show V c main_arg8 _ = V c main_arg8 y
  refine congrArg (V c main_arg8) (funext fun a => Fin.ext ?_)
  match a with
  | ⟨0, _⟩ => show win2_1.index t (0 : Fin 2) * 256 + 1 * (y 0).val = (y 0).val; rw [e2]; omega
  | ⟨1, _⟩ => show win2_1.index t (1 : Fin 2) * 40 + 1 * (y 1).val = (y 1).val; rw [e3]; omega

/-- The bias row's block at every point is the whole array. -/
theorem iblk2_2_eq (c : Dev nD) (t : Fin cfg2.N) :
    (iblk2 V c 2 t : Vec Ideal S1x40 .f32) = (V c main_v38 : S1x40.Idx → EReal) := by
  obtain ⟨-, -, -, -, e4, e5, -⟩ := idx2 t
  funext y
  unfold iblk2
  rw [View.read_apply]
  show V c main_v38 _ = V c main_v38 y
  refine congrArg (V c main_v38) (funext fun a => Fin.ext ?_)
  match a with
  | ⟨0, _⟩ => show win2_2.index t (0 : Fin 2) * 1 + 1 * (y 0).val = (y 0).val; rw [e4]; omega
  | ⟨1, _⟩ => show win2_2.index t (1 : Fin 2) * 40 + 1 * (y 1).val = (y 1).val; rw [e5]; omega

/-- What point t writes back is block t of the layer of the arrays as the pipeline finds them. -/
theorem flushed2 (c : Dev nD) (t : Fin cfg2.N) :
    (dat2 V c).flushed 3 t = ((cfg2.win 3).blk t).view.read (Elt Ideal)
      (Cert.GcnNet.outLayer (a := 50000) (K := 256) (b := 40) (V c main_v37) (V c main_arg8) (V c main_v38)) := by
  show (cfg2.win 3).cut (grid2.coords t) ((dat2 V c).after 3 t) = _
  rw [after2_3]
  unfold out2_3
  rw [View.canon_unit_zero hz2]
  simp only [View.ld_unit_zero (S := S5000x256) hz2, View.ld_unit_zero (S := S256x40) hz2, View.ld_unit_zero (S := S1x40) hz2]
  funext j
  obtain ⟨p, q, rfl⟩ : ∃ (p : Fin 5000) (q : Fin 40), j = ix2 p q := ⟨j 0, j 1, eq_ix2 j⟩
  obtain ⟨-, -, -, -, -, -, e6, e7⟩ := idx2 t
  have hN : cfg2.N = 10 := N_2
  have hP : t.val * 5000 + p.val < 50000 := by have := lt_of_lt_of_eq t.isLt hN; omega
  show k2_pay1 (iblk2 V c 0 t) (iblk2 V c 1 t) (iblk2 V c 2 t) (ix2 p q)
    = Cert.GcnNet.outLayer (a := 50000) (K := 256) (b := 40) (V c main_v37) (V c main_arg8) (V c main_v38) (((cfg2.win 3).blk t).view.emb (ix2 p q))
  have hemb : ((cfg2.win 3).blk t).view.emb (ix2 p q) = ix2 (⟨t.val * 5000 + p.val, hP⟩ : Fin 50000) q := by
    funext a; apply Fin.ext
    match a with
    | ⟨0, _⟩ => show win2_3.index t (0 : Fin 2) * 5000 + 1 * p.val = t.val * 5000 + p.val; rw [e6]; omega
    | ⟨1, _⟩ => show win2_3.index t (1 : Fin 2) * 40 + 1 * q.val = q.val; rw [e7]; omega
  rw [hemb, pay2_apply, iblk2_1_eq, iblk2_2_eq]
  exact Cert.GcnNet.outLayer_row _ _ _ _ p ⟨_, hP⟩ (fun k => iblk2_0_apply V c t p k ⟨_, hP⟩ rfl) q

/-- An index of the output array is in point t's block iff each coordinate is in the block's range on its axis. -/
theorem mem_blk2 (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v39).slice (win2_3.rect t)).set ↔ _
  rw [View.set_slice_whole, Rect.mem_set_unit]
  exact Iff.rfl

/-- THE OUTPUT ARRAY when the pipeline ends: the layer of the arrays it was entered with. Row r is written back by
    point r / 5000. -/
theorem final2 (c : Dev nD) : (dat2 V c).arrAt 3 cfg2.N
    = Cert.GcnNet.outLayer (a := 50000) (K := 256) (b := 40) (V c main_v37) (V c main_arg8) (V c main_v38) :=
  (dat2 V c).arrAt_eq_of_cover 3 _ (fun t _ => flushed2 V c t) fun i => by
    have h0 : (i 0).val < 50000 := (i 0).isLt
    have h1 : (i 1).val < 40 := (i 1).isLt
    have hN : cfg2.N = 10 := N_2
    have ht : (i 0).val / 5000 < cfg2.N := by rw [hN]; omega
    obtain ⟨-, -, -, -, -, -, e6, e7⟩ := idx2 ⟨(i 0).val / 5000, ht⟩
    refine ⟨⟨(i 0).val / 5000, ht⟩, flush2_3 _, ?_⟩
    rw [mem_blk2]
    intro a
    match a with
    | ⟨0, _⟩ =>
      show win2_3.index ⟨(i 0).val / 5000, ht⟩ (0 : Fin 2) * 5000 ≤ (i 0).val
        ∧ (i 0).val < win2_3.index ⟨(i 0).val / 5000, ht⟩ (0 : Fin 2) * 5000 + 5000
      rw [e6]
      show (i 0).val / 5000 * 5000 ≤ (i 0).val ∧ (i 0).val < (i 0).val / 5000 * 5000 + 5000
      omega
    | ⟨1, _⟩ =>
      show win2_3.index ⟨(i 0).val / 5000, ht⟩ (1 : Fin 2) * 40 ≤ (i 1).val
        ∧ (i 1).val < win2_3.index ⟨(i 0).val / 5000, ht⟩ (1 : Fin 2) * 40 + 40
      rw [e7]
      omega

end Cert.KernelIdeal.Net

end
-- ==== Proof.KChain.lean ====
/-
  The kernel program's buffers at each boundary of @main, at the ideal values, walked from the launch to the return.

  @main aggregates, applies a linear layer in a pipeline, and does so three times. An aggregation gathers, for every edge,
  the row of the edge's source node (a negative node number counted from the end) and adds it into the row of the edge's
  destination node, starting from zeros; the edge list is the second argument, its first row the sources and its second
  the destinations. The three pipelines leave a hidden layer, a hidden layer and the output layer of the arrays they are
  entered with (the modules on the pipelines). Chaining these: the first result buffer ends holding
  output (aggregate (hidden (aggregate (hidden (aggregate features) W1 b1)) W2 b2)) W3 b3, each bias vector cast to a row.
  The aggregation is carried as one function of the node matrix and never opened.
-/
import proofs.«159212_j257698038541_1_alg».proof.Proof.KRun
import proofs.«159212_j257698038541_1_alg».proof.Proof.KRegion0
import proofs.«159212_j257698038541_1_alg».proof.Proof.KRegion1
import proofs.«159212_j257698038541_1_alg».proof.Proof.KRegion2
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo

/-! ## The host stages -/

/-- The edges' source nodes: the edge list's first row. -/
def srcOf (ei : IVec S2x800000 32) : IVec S800000 32 :=
  shapeCast S800000 (extractStridedSlice S1x800000 ![0, 0] ei slices_S2x800000_S1x800000_0_0) shapeCasts_S1x800000_S800000

/-- The edges' destination nodes: the edge list's second row. -/
def dstOf (ei : IVec S2x800000 32) : IVec S800000 32 :=
  shapeCast S800000 (extractStridedSlice S1x800000 ![1, 0] ei slices_S2x800000_S1x800000_1_0) shapeCasts_S1x800000_S800000

/-- The aggregation: from zeros, the row of every edge's source added into the row of its destination. -/
def aggregate (s d : IVec S800000 32) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The whole network: three aggregations, each followed by a linear layer. -/
def net (x : FVec Ideal S50000x256 .f32) (ei : IVec S2x800000 32) (w1 : FVec Ideal S256x256 .f32) (b1 : FVec Ideal S256 .f32)
    (w2 : FVec Ideal S256x256 .f32) (b2 : FVec Ideal S256 .f32) (w3 : FVec Ideal S256x40 .f32) (b3 : FVec Ideal S40 .f32) :
    FVec Ideal S50000x40 .f32 :=
  Cert.GcnNet.outLayer (a := 50000) (K := 256) (b := 40)
    (aggregate (srcOf ei) (dstOf ei)
      (Cert.GcnNet.hidden (a := 50000) (K := 256) (b := 256)
        (aggregate (srcOf ei) (dstOf ei)
          (Cert.GcnNet.hidden (a := 50000) (K := 256) (b := 256) (aggregate (srcOf ei) (dstOf ei) x) w1
            (shapeCast S1x256 b1 shapeCasts_S256_S1x256)))
        w2 (shapeCast S1x256 b2 shapeCasts_S256_S1x256)))
    w3 (shapeCast S1x40 b3 shapeCasts_S40_S1x40)

variable (m : (ℓ : Loc nD τ sig) → Buf (Elt Ideal) ℓ) (ρ : Dev nD → PrngReg) (c : Dev nD)

/-! ## Before pipeline 0 -/

theorem W1_v13 : W1 m ρ c (Proc.devRef .tc main_v13) = aggregate (srcOf (m ((c : Thread nD τ).loc main_arg1))) (dstOf (m ((c : Thread nD τ).loc main_arg1))) (m ((c : Thread nD τ).loc main_arg0)) := by
  dsimp only [W1, hostOps0]; after_results; rfl
theorem W1_v14 : W1 m ρ c (Proc.devRef .tc main_v14) = shapeCast S1x256 (m ((c : Thread nD τ).loc main_arg5)) shapeCasts_S256_S1x256 := by
  dsimp only [W1, hostOps0]; after_results; rfl
theorem W1_v1 : W1 m ρ c (Proc.devRef .tc main_v1) = srcOf (m ((c : Thread nD τ).loc main_arg1)) := by
  dsimp only [W1, hostOps0]; after_results; rfl
theorem W1_v3 : W1 m ρ c (Proc.devRef .tc main_v3) = dstOf (m ((c : Thread nD τ).loc main_arg1)) := by
  dsimp only [W1, hostOps0]; after_results; rfl
theorem W1_arg4 : W1 m ρ c (Proc.devRef .tc main_arg4) = m ((c : Thread nD τ).loc main_arg4) := by
  dsimp only [W1, hostOps0]; after_results
theorem W1_arg6 : W1 m ρ c (Proc.devRef .tc main_arg6) = m ((c : Thread nD τ).loc main_arg6) := by
  dsimp only [W1, hostOps0]; after_results
theorem W1_arg7 : W1 m ρ c (Proc.devRef .tc main_arg7) = m ((c : Thread nD τ).loc main_arg7) := by
  dsimp only [W1, hostOps0]; after_results
theorem W1_arg8 : W1 m ρ c (Proc.devRef .tc main_arg8) = m ((c : Thread nD τ).loc main_arg8) := by
  dsimp only [W1, hostOps0]; after_results
theorem W1_arg9 : W1 m ρ c (Proc.devRef .tc main_arg9) = m ((c : Thread nD τ).loc main_arg9) := by
  dsimp only [W1, hostOps0]; after_results

/-! ## After pipeline 0 -/

theorem W2_v15 : W2 m ρ c (Proc.devRef .tc main_v15)
    = Cert.GcnNet.hidden (a := 50000) (K := 256) (b := 256) (W1 m ρ c (Proc.devRef .tc main_v13)) (W1 m ρ c (Proc.devRef .tc main_arg4)) (W1 m ρ c (Proc.devRef .tc main_v14)) :=
  (W2_arr m ρ c 3).trans (final0 (V1 m ρ) c)
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)

/-! ## Before pipeline 1 -/

theorem W3_v25 : W3 m ρ c (Proc.devRef .tc main_v25) = aggregate (W2 m ρ c (Proc.devRef .tc main_v1)) (W2 m ρ c (Proc.devRef .tc main_v3)) (W2 m ρ c (Proc.devRef .tc main_v15)) := by
  dsimp only [W3, hostOps1]; after_results; rfl
theorem W3_v26 : W3 m ρ c (Proc.devRef .tc main_v26) = shapeCast S1x256 (W2 m ρ c (Proc.devRef .tc main_arg7)) shapeCasts_S256_S1x256 := by
  dsimp only [W3, hostOps1]; after_results; rfl
theorem W3_arg6 : W3 m ρ c (Proc.devRef .tc main_arg6) = W2 m ρ c (Proc.devRef .tc main_arg6) := by
  dsimp only [W3, hostOps1]; after_results
theorem W3_v1 : W3 m ρ c (Proc.devRef .tc main_v1) = W2 m ρ c (Proc.devRef .tc main_v1) := by
  dsimp only [W3, hostOps1]; after_results
theorem W3_v3 : W3 m ρ c (Proc.devRef .tc main_v3) = W2 m ρ c (Proc.devRef .tc main_v3) := by
  dsimp only [W3, hostOps1]; after_results
theorem W3_arg8 : W3 m ρ c (Proc.devRef .tc main_arg8) = W2 m ρ c (Proc.devRef .tc main_arg8) := by
  dsimp only [W3, hostOps1]; after_results
theorem W3_arg9 : W3 m ρ c (Proc.devRef .tc main_arg9) = W2 m ρ c (Proc.devRef .tc main_arg9) := by
  dsimp only [W3, hostOps1]; after_results

/-! ## After pipeline 1 -/

theorem W4_v27 : W4 m ρ c (Proc.devRef .tc main_v27)
    = Cert.GcnNet.hidden (a := 50000) (K := 256) (b := 256) (W3 m ρ c (Proc.devRef .tc main_v25)) (W3 m ρ c (Proc.devRef .tc main_arg6)) (W3 m ρ c (Proc.devRef .tc main_v26)) :=
  (W4_arr m ρ c 3).trans (final1 (V3 m ρ) c)
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_arg8 : W4 m ρ c (Proc.devRef .tc main_arg8) = W3 m ρ c (Proc.devRef .tc main_arg8) := W4_of_ne m ρ c main_arg8 (by decide)
theorem W4_arg9 : W4 m ρ c (Proc.devRef .tc main_arg9) = W3 m ρ c (Proc.devRef .tc main_arg9) := W4_of_ne m ρ c main_arg9 (by decide)

/-! ## Before pipeline 2 -/

theorem W5_v37 : W5 m ρ c (Proc.devRef .tc main_v37) = aggregate (W4 m ρ c (Proc.devRef .tc main_v1)) (W4 m ρ c (Proc.devRef .tc main_v3)) (W4 m ρ c (Proc.devRef .tc main_v27)) := by
  dsimp only [W5, hostOps2]; after_results; rfl
theorem W5_v38 : W5 m ρ c (Proc.devRef .tc main_v38) = shapeCast S1x40 (W4 m ρ c (Proc.devRef .tc main_arg9)) shapeCasts_S40_S1x40 := by
  dsimp only [W5, hostOps2]; after_results; rfl
theorem W5_arg8 : W5 m ρ c (Proc.devRef .tc main_arg8) = W4 m ρ c (Proc.devRef .tc main_arg8) := by
  dsimp only [W5, hostOps2]; after_results

/-! ## After pipeline 2, and the return -/

theorem W6_v39 : W6 m ρ c (Proc.devRef .tc main_v39)
    = Cert.GcnNet.outLayer (a := 50000) (K := 256) (b := 40) (W5 m ρ c (Proc.devRef .tc main_v37)) (W5 m ρ c (Proc.devRef .tc main_arg8)) (W5 m ρ c (Proc.devRef .tc main_v38)) :=
  (W6_arr m ρ c 3).trans (final2 (V5 m ρ) c)

theorem W7_v39 : W7 m ρ c (Proc.devRef .tc main_v39) = W6 m ρ c (Proc.devRef .tc main_v39) := by
  dsimp only [W7, hostOps3]; after_results
theorem W7_c_7 : W7 m ρ c (Proc.devRef .tc main_c_7) = constantI S_ 32 150000#32 := by
  dsimp only [W7, hostOps3]; after_results

/-- THE FIRST RESULT at the return: the network of the arguments as launched. -/
theorem W7_net : W7 m ρ c (Proc.devRef .tc main_v39)
    = net (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  rw [W7_v39, W6_v39, W5_v37, W5_v38, W5_arg8, W4_v27, W4_v1, W4_v3, W4_arg8, W4_arg9, W3_v25, W3_v26, W3_arg6, W3_v1, W3_v3,
    W3_arg8, W3_arg9, W2_v15, W2_v1, W2_v3, W2_arg6, W2_arg7, W2_arg8, W2_arg9, W1_v13, W1_v14, W1_v1, W1_v3, W1_arg4, W1_arg6,
    W1_arg7, W1_arg8, W1_arg9]
  rfl

/-! ## The run, read -/

/-- Every weakly fair execution of the kernel program terminates, nothing faulting, with the first result at the network
    of the arguments, the second at its constant, and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39)
        = net (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
            (m ((c : Thread nD τ).loc main_arg8)) (m ((c : Thread nD τ).loc main_arg9))
      ∧ r.2.mem ((c.tc : Thread nD τ).loc main_c_7) = constantI S_ 32 150000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v39 (by decide))).trans (W7_net m ρ c),
     (h c _ (mem_uc main_c_7 (by decide))).trans (W7_c_7 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c)⟩)
    (run_all m ρ)

end Cert.KernelIdeal.Net

end
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.RefNet.lean ====
/-
  The reference program's result, at the ideal values, as the graph convolution network of its arguments.

  The reference aggregates and applies a linear layer three times, everything on the host: a dot_general, the bias vector
  broadcast to a row and then to the matrix, a maximum with the zero splat (twice), and for the last layer jax's
  log_softmax (a row maximum from -∞, a further maximum against a splat of -∞, the shifted logits exponentiated, summed over
  the rows, the logarithm subtracted). Each of these whole-array spellings is the layer written entry by entry; the
  aggregation is carried as one function of the node matrix and never opened.
-/
import proofs.«159212_j257698038541_1_alg».proof.Proof.RefRunPatched
import proofs.«159212_j257698038541_1_alg».proof.Proof.Layers

set_option maxRecDepth 16384

noncomputable section

namespace Cert.ReferenceIdeal.Net

open Cert.ReferenceIdeal Cert.ReferenceIdeal.Gen Idealize.ShloMosaic Idealize.ShloMosaic.TcCoe Idealize.SL.Sem

/-! ## The host stages -/

/-- The edges' source nodes: the edge list's first row. -/
def srcOf (ei : IVec S2x800000 32) : IVec S800000 32 :=
  shapeCast S800000 (extractStridedSlice S1x800000 ![0, 0] ei slices_S2x800000_S1x800000_0_0) shapeCasts_S1x800000_S800000

/-- The edges' destination nodes: the edge list's second row. -/
def dstOf (ei : IVec S2x800000 32) : IVec S800000 32 :=
  shapeCast S800000 (extractStridedSlice S1x800000 ![1, 0] ei slices_S2x800000_S1x800000_1_0) shapeCasts_S1x800000_S800000

/-- The aggregation: from zeros, the row of every edge's source added into the row of its destination. -/
def aggregate (s d : IVec S800000 32) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The host's hidden layer. -/
def hiddenH (x : FVec Ideal S50000x256 .f32) (w : FVec Ideal S256x256 .f32) (b : FVec Ideal S256 .f32) : FVec Ideal S50000x256 .f32 :=
  maximumf (addf (Host.dotGeneral dot_S50000x256_S256x256_S50000x256_1_0_0_1_n_n none x w)
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- The host's logits of the last layer. -/
def logitsH (x : FVec Ideal S50000x256 .f32) (w : FVec Ideal S256x40 .f32) (b : FVec Ideal S40 .f32) : FVec Ideal S50000x40 .f32 :=
  addf (Host.dotGeneral dot_S50000x256_S256x40_S50000x40_1_0_0_1_n_n none x w)
    (broadcastInDim S50000x40 ![0, 1] bcast_S1x40_S50000x40_0_1 (broadcastInDim S1x40 ![1] bcast_S40_S1x40_1 b))

/-- The host's row maxima broadcast back to the rows. -/
def rowMaxH (Y : FVec Ideal S50000x40 .f32) : FVec Ideal S50000x40 .f32 :=
  broadcastInDim S50000x40 ![0, 1] bcast_S50000x1_S50000x40_0_1 (broadcastInDim S50000x1 ![0] bcast_S50000_S50000x1_0
    (maximumf (broadcastInDim S50000 ![] bcast_S_S50000 (constant (F := Ideal) S_ .f32 0xFF800000#32))
      (Host.reduce FloatOps.maximumf Y (constant (F := Ideal) S_ .f32 0xFF800000#32) reducesTo_S50000x40_S50000_d1 h_S_)))

/-- The host's log-softmax over the rows. -/
def lsmH (Y : FVec Ideal S50000x40 .f32) : FVec Ideal S50000x40 .f32 :=
  subf (subf Y (rowMaxH Y))
    (broadcastInDim S50000x40 ![0, 1] bcast_S50000x1_S50000x40_0_1 (Host.log (broadcastInDim S50000x1 ![0] bcast_S50000_S50000x1_0
      (Host.reduceAdd (Host.exp (subf Y (rowMaxH Y))) (constant (F := Ideal) S_ .f32 0x00000000#32) reducesTo_S50000x40_S50000_d1 h_S_))))

/-- The reference's composition of its stages. -/
def netH (x : FVec Ideal S50000x256 .f32) (ei : IVec S2x800000 32) (w1 : FVec Ideal S256x256 .f32) (b1 : FVec Ideal S256 .f32)
    (w2 : FVec Ideal S256x256 .f32) (b2 : FVec Ideal S256 .f32) (w3 : FVec Ideal S256x40 .f32) (b3 : FVec Ideal S40 .f32) :
    FVec Ideal S50000x40 .f32 :=
  lsmH (logitsH (aggregate (srcOf ei) (dstOf ei)
    (hiddenH (aggregate (srcOf ei) (dstOf ei) (hiddenH (aggregate (srcOf ei) (dstOf ei) x) w1 b1)) w2 b2)) w3 b3)

theorem hc256 : S256.ShapeCasts S1x256 := by decide
theorem hc40 : S40.ShapeCasts S1x40 := by decide
theorem hred : S50000x40.Reduces [1] S50000 := by decide

/-- The same network with every layer written entry by entry. -/
def net (x : FVec Ideal S50000x256 .f32) (ei : IVec S2x800000 32) (w1 : FVec Ideal S256x256 .f32) (b1 : FVec Ideal S256 .f32)
    (w2 : FVec Ideal S256x256 .f32) (b2 : FVec Ideal S256 .f32) (w3 : FVec Ideal S256x40 .f32) (b3 : FVec Ideal S40 .f32) :
    FVec Ideal S50000x40 .f32 :=
  Cert.GcnNet.outLayer (a := 50000) (K := 256) (b := 40)
    (aggregate (srcOf ei) (dstOf ei)
      (Cert.GcnNet.hidden (a := 50000) (K := 256) (b := 256)
        (aggregate (srcOf ei) (dstOf ei)
          (Cert.GcnNet.hidden (a := 50000) (K := 256) (b := 256) (aggregate (srcOf ei) (dstOf ei) x) w1
            (shapeCast S1x256 b1 hc256)))
        w2 (shapeCast S1x256 b2 hc256)))
    w3 (shapeCast S1x40 b3 hc40)

/-- The host's hidden layer is the hidden layer. -/
theorem hiddenH_eq (x : FVec Ideal S50000x256 .f32) (w : FVec Ideal S256x256 .f32) (b : FVec Ideal S256 .f32) :
    hiddenH x w b = Cert.GcnNet.hidden (a := 50000) (K := 256) (b := 256) x w (shapeCast S1x256 b hc256) :=
  (Cert.GcnNet.host_hidden (a := 50000) (K := 256) (b := 256) dot_S50000x256_S256x256_S50000x256_1_0_0_1_n_n rfl x w b hc256
    bcast_S256_S1x256_1 bcast_S1x256_S50000x256_0_1 bcast_S_S50000x256).symm

/-- The host's log-softmax of its logits is the output layer. -/
theorem outH_eq (x : FVec Ideal S50000x256 .f32) (w : FVec Ideal S256x40 .f32) (b : FVec Ideal S40 .f32) :
    lsmH (logitsH x w b) = Cert.GcnNet.outLayer (a := 50000) (K := 256) (b := 40) x w (shapeCast S1x40 b hc40) :=
  (Cert.GcnNet.host_outLayer (a := 50000) (K := 256) (b := 40) dot_S50000x256_S256x40_S50000x40_1_0_0_1_n_n rfl x w b hc40
    bcast_S40_S1x40_1 bcast_S1x40_S50000x40_0_1 reducesTo_S50000x40_S50000_d1 hred h_S_ bcast_S_S50000 bcast_S50000_S50000x1_0
    bcast_S50000x1_S50000x40_0_1 (logitsH x w b) rfl).symm

theorem netH_eq (x : FVec Ideal S50000x256 .f32) (ei : IVec S2x800000 32) (w1 : FVec Ideal S256x256 .f32) (b1 : FVec Ideal S256 .f32)
    (w2 : FVec Ideal S256x256 .f32) (b2 : FVec Ideal S256 .f32) (w3 : FVec Ideal S256x40 .f32) (b3 : FVec Ideal S40 .f32) :
    netH x ei w1 b1 w2 b2 w3 b3 = net x ei w1 b1 w2 b2 w3 b3 := by
  unfold netH net
  rw [outH_eq, hiddenH_eq, hiddenH_eq]

variable (m : (ℓ : Loc nD τ sig) → Buf (Elt Ideal) ℓ) (c : Dev nD)

/-- The run's composed term is the reference's composition of its stages. -/
theorem res_eq_netH : ValueP.res_main_v48 (F := Ideal) m c
    = netH (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold ValueP.res_main_v48 netH lsmH rowMaxH logitsH hiddenH aggregate srcOf dstOf
  rfl

/-- THE REFERENCE'S RESULT: the network of the arguments as launched. -/
theorem res_eq_net : ValueP.res_main_v48 (F := Ideal) m c
    = net (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) :=
  (res_eq_netH m c).trans (netH_eq _ _ _ _ _ _ _ _)

end Cert.ReferenceIdeal.Net

end
-- ==== Proof.lean ====
/-
  A three-layer graph convolution network, its linear layers run as tiled pipelines, against the same network written with
  whole-array host operations: equal results on the extended reals.

  Both programs aggregate the node features along the edges (gather the source rows, add them into the destination rows),
  apply a linear layer, and repeat this three times; the first two layers clamp at zero, the last takes a row-wise
  log-softmax. The aggregations are the same host operations in both programs and are carried as one function, never
  opened. A linear layer's entry (p, q) is ∑ k, x(p, k) · w(k, q) + b(q) in both programs: the pipeline computes it block of
  rows by block of rows with a matrix product into a zero accumulator, its operands rounded to a narrower format on the
  way in (the identity on the extended reals), the host with one dot_general; a row of the result depends on the same row
  of the input only, so the ten blocks a pipeline writes back tile the layer of the whole matrix. The clamp and the
  log-softmax shifted by the row maximum are spelt with lane reductions and one-column broadcasts in the pipeline and with
  axis reductions and broadcast_in_dim on the host, and read entry by entry as the same expressions. No step needs an
  operand to be finite, so the precondition is never opened.

  Modules: Layers (the layers entry by entry and their two spellings), KRegion0 / KRegion1 / KRegion2 (what each pipeline
  leaves in its output array), KRun (the kernel program's run with every buffer's final contents named), KChain (the
  buffers walked from the launch to the return: the first result is the network of the arguments), RefRunPatched (the
  reference's run), RefNet (its composed term is the network of the arguments). Here: the aggregations and the networks
  of the two programs are one function, and the five claims.
-/
import proofs.«159212_j257698038541_1_alg».proof.Defs
import proofs.«159212_j257698038541_1_alg».proof.Proof.Gen.Kernel
import proofs.«159212_j257698038541_1_alg».proof.Proof.Gen.Kernel.Skeleton
import proofs.«159212_j257698038541_1_alg».proof.Proof.Gen.Kernel.Launch
import proofs.«159212_j257698038541_1_alg».proof.Proof.Gen.Kernel.Points
import proofs.«159212_j257698038541_1_alg».proof.Proof.Gen.Kernel.Frame
import proofs.«159212_j257698038541_1_alg».proof.Proof.Gen.KernelIdeal
import proofs.«159212_j257698038541_1_alg».proof.Proof.Gen.KernelIdeal.Skeleton
import proofs.«159212_j257698038541_1_alg».proof.Proof.Gen.KernelIdeal.Launch
import proofs.«159212_j257698038541_1_alg».proof.Proof.Gen.KernelIdeal.Points
import proofs.«159212_j257698038541_1_alg».proof.Proof.Gen.KernelIdeal.Frame
import proofs.«159212_j257698038541_1_alg».proof.Proof.Gen.ReferenceIdeal
import proofs.«159212_j257698038541_1_alg».proof.Proof.Gen.Pre_finite_inputs
import proofs.«159212_j257698038541_1_alg».proof.Proof.KChain
import proofs.«159212_j257698038541_1_alg».proof.Proof.RefNet
import Idealize.ShloMosaic.Adequacy
import Idealize.ShloMosaic.Init

noncomputable section

namespace Cert.Proof

open Idealize.ShloMosaic Idealize.SL.Sem

/-- The two programs' networks are one function: the same aggregation, the same layers, the same bias rows. -/
theorem net_eq (x : FVec Ideal Cert.KernelIdeal.S50000x256 .f32) (ei : IVec Cert.KernelIdeal.S2x800000 32)
    (w1 : FVec Ideal Cert.KernelIdeal.S256x256 .f32) (b1 : FVec Ideal Cert.KernelIdeal.S256 .f32)
    (w2 : FVec Ideal Cert.KernelIdeal.S256x256 .f32) (b2 : FVec Ideal Cert.KernelIdeal.S256 .f32)
    (w3 : FVec Ideal Cert.KernelIdeal.S256x40 .f32) (b3 : FVec Ideal Cert.KernelIdeal.S40 .f32) :
    Cert.ReferenceIdeal.Net.net x ei w1 b1 w2 b2 w3 b3 = Cert.KernelIdeal.Net.net x ei w1 b1 w2 b2 w3 b3 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both runs end with the first result at the network of the arguments and the second at the same constant. -/
theorem algebraic : Cert.algebraic_KernelIdeal_ReferenceIdeal := by
  intro m ρ m' ρ' _ hagree
  refine ⟨_, _, Cert.KernelIdeal.Net.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, -, -, h4, h5, h6, h7, h8, h9⟩ := hagree c
  rw [Cert.ReferenceIdeal.Net.res_eq_net, h0, h1, h4, h5, h6, h7, h8, h9]
  exact net_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
